-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S16x2048x128 : Shape := ⟨3, ![16, 2048, 128]⟩
abbrev S16x128x2048 : Shape := ⟨3, ![16, 128, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S16x2048x128 : S_.BroadcastsInDim S16x2048x128 (![] : Fin 0 → Fin S16x2048x128.rank)
  reducesTo_S16x2048x128_S_d0_1_2 : S16x2048x128.ReducesTo [0, 1, 2] S_
  bcast_S_S16x128x2048 : S_.BroadcastsInDim S16x128x2048 (![] : Fin 0 → Fin S16x128x2048.rank)
  reducesTo_S16x128x2048_S_d0_1_2 : S16x128x2048.ReducesTo [0, 1, 2] S_

variable [Facts]

def fn {F : FTy → Type} [FloatOps F] (main_arg0 : FVec F S32768x2048 .f32) (main_arg1 : FVec F S16x2048x128 .f32) (main_arg2 : FVec F S16x128x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x128x2048 .f32 := Host.absf main_arg2
  let main_cst_2 : FVec F S_ .f32 := constant S_ .f32 0x7F800000#32
  let main_v10 : FVec F S16x128x2048 .f32 := broadcastInDim S16x128x2048 ![] bcast_S_S16x128x2048 main_cst_2
  let main_v11 : IVec S16x128x2048 1 := cmpf .olt main_v9 main_v10
  let main_c_3 : IVec S_ 1 := constantI S_ 1 1#1
  let main_v12 : IVec S_ 1 := (fun x v => Host.reduce IntOp.andi x v reducesTo_S16x128x2048_S_d0_1_2 h_S_) main_v11 main_c_3
  let main_v13 : IVec S_ 1 := andi main_v8 main_v12
  main_v13
-- ==== Kernel.lean ====
abbrev S32768x2048 : Shape := ⟨2, ![32768, 2048]⟩
abbrev S16x2048x128 : Shape := ⟨3, ![16, 2048, 128]⟩
abbrev S16x128x2048 : Shape := ⟨3, ![16, 128, 2048]⟩
abbrev S512x2048 : Shape := ⟨2, ![512, 2048]⟩
abbrev S1x2048x128 : Shape := ⟨3, ![1, 2048, 128]⟩
abbrev S1x128x2048 : Shape := ⟨3, ![1, 128, 2048]⟩
abbrev S2048x128 : Shape := ⟨2, ![2048, 128]⟩
abbrev S128x2048 : Shape := ⟨2, ![128, 2048]⟩
abbrev S512x128 : Shape := ⟨2, ![512, 128]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S16x2048x128, .f32⟩
  | .hbm, ⟨2, _⟩ => ⟨S16x128x2048, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048x128, .f32⟩
  | .local _ .vmem, ⟨3, _⟩ => ⟨S1x2048x128, .f32⟩
  | .local _ .vmem, ⟨4, _⟩ => ⟨S1x128x2048, .f32⟩
  | .local _ .vmem, ⟨5, _⟩ => ⟨S1x128x2048, .f32⟩
  | .local _ .vmem, ⟨6, _⟩ => ⟨S512x2048, .f32⟩
  | .local _ .vmem, ⟨7, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  dot_S512x2048_S2048x128_S512x128_1_0_0_1_n_n_wf : DotDims.WF S512x2048 S2048x128 S512x128 [1] [0] [0] [1] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S16x128x2048.size a
  hwx0_2 : ∀ i : grid0.Coords, EltTy.bits .f32 = 32 ∨ (Rect.block (s := S16x128x2048) S1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .f32 = 32 ∨ (Rect.block (s := S32768x2048) S512x2048.size (cc0_transform_3 i) (hinb0_3 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S16x2048x128 : Shape := ⟨3, ![16, 2048, 128]⟩
abbrev S16x128x2048 : Shape := ⟨3, ![16, 128, 2048]⟩
abbrev S16x2048x2048 : Shape := ⟨3, ![16, 2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x2048x128, .f32⟩
  | .hbm, ⟨2, _⟩ => ⟨S16x128x2048, .f32⟩
  | .hbm, ⟨3, _⟩ => ⟨S16x2048x2048, .f32⟩
  | .hbm, ⟨4, _⟩ => ⟨S16x2048x128, .f32⟩
  | .hbm, ⟨5, _⟩ => ⟨S16x2048x2048, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  shapeCasts_S32768x2048_S16x2048x2048 : S32768x2048.ShapeCasts S16x2048x2048
  bcast_S_S16x2048x2048 : S_.BroadcastsInDim S16x2048x2048 (![] : Fin 0 → Fin S16x2048x2048.rank)
  shapeCasts_S16x2048x2048_S32768x2048 : S16x2048x2048.ShapeCasts S32768x2048
  dot_S16x2048x2048_S16x2048x128_S16x2048x128_2_1_1_2_0_0_wf : DotDims.WF S16x2048x2048 S16x2048x128 S16x2048x128 [2] [1] [1] [2] [0] [0]
  dot_S16x2048x128_S16x128x2048_S16x2048x2048_2_1_1_2_0_0_wf : DotDims.WF S16x2048x128 S16x128x2048 S16x2048x2048 [2] [1] [1] [2] [0] [0]

variable [Facts₀]

def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf
def dot_S16x2048x128_S16x128x2048_S16x2048x2048_2_1_1_2_0_0 : DotDims S16x2048x128 S16x128x2048 S16x2048x2048 where
  lhsContracting := [2]
  rhsContracting := [1]
  lhsNonContracting := [1]
  rhsNonContracting := [2]
  lhsBatch := [0]
  rhsBatch := [0]
  wf := dot_S16x2048x128_S16x128x2048_S16x2048x2048_2_1_1_2_0_0_wf

class Facts : Prop extends Facts₀ where

variable [Facts]
-- ==== Proof.Adapter.lean ====
/-
  The grouped low-rank adapter as a single function of its three argument arrays, over the extended reals.

  The activations `x` are 32768 token rows of 2048 features, packed expert by expert: sixteen experts own 2048
  consecutive rows each, so row `T` belongs to expert `T / 2048`. Expert `e` carries a down-projection
  `a[e] : 2048 × 128` and an up-projection `b[e] : 128 × 2048`. The adapter sends row `T` first to its 128
  low-rank coordinates,
      low T r = ∑ h, x[T, h] · a[e, h, r],
  and then back to 2048 output features, scaled by alpha / rank = 32 / 128:
      out[T, o] = (∑ r, low T r · b[e, r, o]) · ¼.
  The two sums are kept nested exactly as written — the inner one is a factor of each term of the outer one — so
  nothing here distributes a product over a sum, and no entry has to be finite for the statement to make sense.
  The quarter is kept as the 32-bit word both programs print for it; it is the same word on both sides and is
  never evaluated.
-/
import Idealize.ShloMosaic.PureOps.Ideal
import Idealize.ShloMosaic.Lib.ValueIdx

noncomputable section

open Idealize.ShloMosaic Idealize.ShloMosaic.ValueIdx
open scoped BigOperators

namespace Cert.Adapter

/-- The packed activations, the down-projections and the up-projections, entry by entry. -/
abbrev Acts : Type := (⟨2, ![32768, 2048]⟩ : Shape).Idx → EReal
abbrev Downs : Type := (⟨3, ![16, 2048, 128]⟩ : Shape).Idx → EReal
abbrev Ups : Type := (⟨3, ![16, 128, 2048]⟩ : Shape).Idx → EReal

/-- The expert that owns token row `T`: rows are packed 2048 to an expert. -/
def expertOf (T : Fin 32768) : Fin 16 := ⟨T.val / 2048, by have := T.isLt; omega⟩

/-- alpha / rank = 32 / 128, as the word both programs print. -/
abbrev quarter : EReal := Ideal.ofBits .f32 0x3E800000#32

/-- Row `T` in its expert's 128 low-rank coordinates. -/
def low (x : Acts) (a : Downs) (T : Fin 32768) (r : Fin 128) : EReal :=
  ∑ h : Fin 2048, x (ix2 T h) * a (ix3 (expertOf T) h r)

/-- The adapter's output: the low-rank coordinates of the row sent up by its expert's second matrix, times ¼. -/
def out (x : Acts) (a : Downs) (b : Ups) : Acts := fun i =>
  (∑ r : Fin 128, low x a (i 0) r * b (ix3 (expertOf (i 0)) r (i 1))) * quarter

/-- The same at an index given by its two coordinates. -/
theorem out_ix2 (x : Acts) (a : Downs) (b : Ups) (T : Fin 32768) (o : Fin 2048) :
    out x a b (ix2 T o) = (∑ r : Fin 128, low x a T r * b (ix3 (expertOf T) r o)) * quarter := rfl

end Cert.Adapter

end
-- ==== Proof.RefAdapter.lean ====
/-
  The reference computes the adapter.

  The reference views the packed rows as [16, 2048, 2048] (expert, row within the expert, feature), contracts the
  feature axis against the expert's down-projection, contracts the 128 low-rank coordinates against the expert's
  up-projection, multiplies by ¼, and views the result as [32768, 2048] again. Read at output index (T, o): the last
  view sends (T, o) to (T / 2048, T % 2048, o); the two contractions keep the expert and the row and put the summed
  coordinate in the contracted place; and the first view sends (T / 2048, T % 2048, h) back to row
  (T / 2048) · 2048 + T % 2048 = T. So every factor of every term is an entry the adapter's formula names, in the
  same nesting of the two sums.
-/
import proofs.«101216_j66305705115884_2_alg».proof.Proof.Gen.ReferenceIdeal.Read
import proofs.«101216_j66305705115884_2_alg».proof.Proof.Adapter

noncomputable section

open Idealize.ShloMosaic Idealize.ShloMosaic.ValueIdx
open scoped BigOperators

namespace Cert.RefAdapter

open Cert.ReferenceIdeal Cert.ReferenceIdeal.Read Cert.Adapter

/-- Through the two views and the two contractions, the activation the reference multiplies is `x[T, h]`. -/
theorem act_idx (i : S32768x2048.Idx) (k : Fin 128) (h : Fin 2048) :
    idx_main_v0 (lidx_main_v1 (lidx_main_v2 (idx_main_v5 i) k) h) = ix2 (i 0) h := by
  have h0 : (i 0).val < 32768 := (i 0).isLt
  have h1 : (i 1).val < 2048 := (i 1).isLt
  have hh : h.val < 2048 := h.isLt
  funext a
  apply Fin.ext
  match a with
  | ⟨0, _⟩ =>
    show ((((i 0).val * 2048 + (i 1).val) / 4194304 * 2048 + ((i 0).val * 2048 + (i 1).val) / 2048 % 2048) * 2048 + h.val) / 2048 = (i 0).val
    omega
  | ⟨1, _⟩ =>
    show ((((i 0).val * 2048 + (i 1).val) / 4194304 * 2048 + ((i 0).val * 2048 + (i 1).val) / 2048 % 2048) * 2048 + h.val) % 2048 = h.val
    omega

/-- The down-projection entry it multiplies it with is `a[T / 2048, h, r]`. -/
theorem down_idx (i : S32768x2048.Idx) (k : Fin 128) (h : Fin 2048) :
    ridx_main_v1 (lidx_main_v2 (idx_main_v5 i) k) h = ix3 (expertOf (i 0)) h k := by
  have h0 : (i 0).val < 32768 := (i 0).isLt
  have h1 : (i 1).val < 2048 := (i 1).isLt
  funext a
  apply Fin.ext
  match a with
  | ⟨0, _⟩ =>
    show ((i 0).val * 2048 + (i 1).val) / 4194304 = (i 0).val / 2048
    omega
  | ⟨1, _⟩ => rfl
  | ⟨2, _⟩ => rfl

/-- The up-projection entry of the outer sum is `b[T / 2048, r, o]`. -/
theorem up_idx (i : S32768x2048.Idx) (k : Fin 128) :
    ridx_main_v2 (idx_main_v5 i) k = ix3 (expertOf (i 0)) k (i 1) := by
  have h0 : (i 0).val < 32768 := (i 0).isLt
  have h1 : (i 1).val < 2048 := (i 1).isLt
  funext a
  apply Fin.ext
  match a with
  | ⟨0, _⟩ =>
    show ((i 0).val * 2048 + (i 1).val) / 4194304 = (i 0).val / 2048
    omega
  | ⟨1, _⟩ => rfl
  | ⟨2, _⟩ =>
    show ((i 0).val * 2048 + (i 1).val) % 2048 = (i 1).val
    omega

/-- The reference's result, as its last stage, is the adapter's output of the three arguments. -/
theorem reference_eq (x : Acts) (a : Downs) (b : Ups) :
    val_main_v5 (F := Ideal) x a b = out x a b := by
  funext i
  rw [val_main_v5_apply, val_main_v4_apply, val_main_v2_apply, val_main_v3_apply, val_main_cst_apply]
  simp only [val_main_v1_apply, val_main_v0_apply, act_idx, down_idx, up_idx, Ideal.mulf_def, Ideal.ofBits_def]
  rfl

end Cert.RefAdapter

end
-- ==== Proof.BlockAdapter.lean ====
/-
  What the kernel body computes on its blocks.

  At a grid point the body holds a [512, 2048] block of token rows, one expert's down-projection as a [1, 2048, 128]
  block and its up-projection as a [1, 128, 2048] block. It drops the unit axis of the two weight blocks, multiplies
  rows by the down-projection into a zero accumulator, multiplies the [512, 128] result by the up-projection into a
  zero accumulator, and scales by ¼. (The changes of float format in between are the identity on the extended
  reals.) Read at entry (p, q) of the output block: a product into a zero accumulator is the plain sum over the
  contracted coordinate, so the entry is
      (∑ r, (∑ h, rows[p, h] · down[0, h, r]) · up[0, r, q]) · ¼,
  the adapter's formula with the block's own coordinates in place of the array's.
-/
import proofs.«101216_j66305705115884_2_alg».proof.Proof.Gen.KernelIdeal.Skeleton
import proofs.«101216_j66305705115884_2_alg».proof.Proof.Adapter
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.BlockAdapter

open Cert.KernelIdeal Cert.KernelIdeal.Gen Cert.Adapter

/-! ## The two weight blocks without their unit axis -/

/-- Entry (h, r) of the down-projection block viewed [2048, 128] is entry (0, h, r) of the block. -/
theorem down_view_apply (x1 : Vec Ideal S1x2048x128 .f32) (h : Fin 2048) (r : Fin 128) :
    shapeCast S2048x128 x1 shapeCasts_S1x2048x128_S2048x128 (ix2 h r) = x1 (ix3 (0 : Fin 1) h r) :=
  shapeCast_apply x1 shapeCasts_S1x2048x128_S2048x128 (ix2 h r) (ix3 (0 : Fin 1) h r)
    (by rewrite [Shape.rowMajor_val_three, Shape.rowMajor_val_two]
        show (0 * 2048 + h.val) * 128 + r.val = h.val * 128 + r.val
        omega)

/-- Entry (r, q) of the up-projection block viewed [128, 2048] is entry (0, r, q) of the block. -/
theorem up_view_apply (x2 : Vec Ideal S1x128x2048 .f32) (r : Fin 128) (q : Fin 2048) :
    shapeCast S128x2048 x2 shapeCasts_S1x128x2048_S128x2048 (ix2 r q) = x2 (ix3 (0 : Fin 1) r q) :=
  shapeCast_apply x2 shapeCasts_S1x128x2048_S128x2048 (ix2 r q) (ix3 (0 : Fin 1) r q)
    (by rewrite [Shape.rowMajor_val_three, Shape.rowMajor_val_two]
        show (0 * 128 + r.val) * 2048 + q.val = r.val * 2048 + q.val
        omega)

/-! ## The first product: rows times the down-projection -/

theorem down_lhs_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem down_lhs_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem down_rhs_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem down_rhs_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- Into a zero accumulator, entry (p, r) of rows times the down-projection is the sum over the 2048 features. -/
theorem down_product_apply (l : FVec Ideal S512x2048 .bf16) (w : FVec Ideal S2048x128 .bf16) (p : Fin 512) (r : Fin 128) :
    matmul dot_S512x2048_S2048x128_S512x128_1_0_0_1_n_n none l w (constant (F := Ideal) S512x128 .f32 0x00000000#32) (ix2 p r)
      = ∑ h : Fin 2048, l (ix2 p h) * w (ix2 h r) := by
  simp only [matmul]
  rw [Ideal.matmul_constant_zero_apply, ← Equiv.sum_comp (contrEquiv1 dot_S512x2048_S2048x128_S512x128_1_0_0_1_n_n 2048 rfl rfl).symm]
  refine Finset.sum_congr rfl fun h _ => ?_
  have hk := contrEquiv1_symm_val dot_S512x2048_S2048x128_S512x128_1_0_0_1_n_n 2048 rfl rfl h
  have el : dot_S512x2048_S2048x128_S512x128_1_0_0_1_n_n.lhsIdx (ix2 p r) ((contrEquiv1 dot_S512x2048_S2048x128_S512x128_1_0_0_1_n_n 2048 rfl rfl).symm h) = ix2 p h := funext fun a => Fin.ext (by
    match a with
    | ⟨0, _⟩ => exact down_lhs_0 _ _
    | ⟨1, _⟩ => exact (down_lhs_1 _ _).trans hk)
  have er : dot_S512x2048_S2048x128_S512x128_1_0_0_1_n_n.rhsIdx (ix2 p r) ((contrEquiv1 dot_S512x2048_S2048x128_S512x128_1_0_0_1_n_n 2048 rfl rfl).symm h) = ix2 h r := funext fun a => Fin.ext (by
    match a with
    | ⟨0, _⟩ => exact (down_rhs_0 _ _).trans hk
    | ⟨1, _⟩ => exact down_rhs_1 _ _)
  rw [el, er]

/-! ## The second product: low-rank coordinates times the up-projection -/

theorem up_lhs_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem up_lhs_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
theorem up_rhs_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem up_rhs_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- Into a zero accumulator, entry (p, q) of the low-rank coordinates times the up-projection is the sum over the 128
    coordinates. -/
theorem up_product_apply (l : FVec Ideal S512x128 .bf16) (w : FVec Ideal S128x2048 .bf16) (p : Fin 512) (q : Fin 2048) :
    matmul dot_S512x128_S128x2048_S512x2048_1_0_0_1_n_n none l w (constant (F := Ideal) S512x2048 .f32 0x00000000#32) (ix2 p q)
      = ∑ r : Fin 128, l (ix2 p r) * w (ix2 r q) := by
  simp only [matmul]
  rw [Ideal.matmul_constant_zero_apply, ← Equiv.sum_comp (contrEquiv1 dot_S512x128_S128x2048_S512x2048_1_0_0_1_n_n 128 rfl rfl).symm]
  refine Finset.sum_congr rfl fun r _ => ?_
  have hk := contrEquiv1_symm_val dot_S512x128_S128x2048_S512x2048_1_0_0_1_n_n 128 rfl rfl r
  have el : dot_S512x128_S128x2048_S512x2048_1_0_0_1_n_n.lhsIdx (ix2 p q) ((contrEquiv1 dot_S512x128_S128x2048_S512x2048_1_0_0_1_n_n 128 rfl rfl).symm r) = ix2 p r := funext fun a => Fin.ext (by
    match a with
    | ⟨0, _⟩ => exact up_lhs_0 _ _
    | ⟨1, _⟩ => exact (up_lhs_1 _ _).trans hk)
  have er : dot_S512x128_S128x2048_S512x2048_1_0_0_1_n_n.rhsIdx (ix2 p q) ((contrEquiv1 dot_S512x128_S128x2048_S512x2048_1_0_0_1_n_n 128 rfl rfl).symm r) = ix2 r q := funext fun a => Fin.ext (by
    match a with
    | ⟨0, _⟩ => exact (up_rhs_0 _ _).trans hk
    | ⟨1, _⟩ => exact up_rhs_1 _ _)
  rw [el, er]

/-! ## The body's stored value at an entry of the output block -/

/-- Entry (p, q) of what the body stores: the adapter's formula on the three loaded blocks. -/
theorem stored_apply (x0 : Vec Ideal S512x2048 .f32) (x1 : Vec Ideal S1x2048x128 .f32) (x2 : Vec Ideal S1x128x2048 .f32)
    (p : Fin 512) (q : Fin 2048) :
    k0_pay1 (F := Ideal) x0 x1 x2 (ix2 p q)
      = (∑ r : Fin 128, (∑ h : Fin 2048, x0 (ix2 p h) * x1 (ix3 (0 : Fin 1) h r)) * x2 (ix3 (0 : Fin 1) r q)) * quarter := by
  unfold k0_pay1
  refine (mulf_apply _ _ (ix2 p q)).trans ?_
  refine congrArg₂ (· * ·) ?_ rfl
  refine (up_product_apply _ _ p q).trans ?_
  refine Finset.sum_congr rfl fun r _ => ?_
  refine congrArg₂ (· * ·) ?_ (up_view_apply x2 r q)
  refine (down_product_apply _ _ p r).trans ?_
  refine Finset.sum_congr rfl fun h _ => ?_
  exact congrArg₂ (· * ·) rfl (down_view_apply x1 h r)

end Cert.BlockAdapter

end
-- ==== Proof.ArrayAdapter.lean ====
/-
  From the kernel's blocks to the whole output array.

  The grid has 64 points. Point `t` works on token rows 512·t … 512·t + 511 — all 2048 columns — of the activations
  and of the output, and on the weights of expert `t / 4` (four consecutive points share an expert, since an expert
  owns 2048 = 4 · 512 rows). These relations between the printed index maps are decided once over the 64 points.
  Row 512·t + p lies in expert (512·t + p) / 2048 = t / 4 for every p < 512, so the blocks the body is handed at
  point `t` are exactly the entries the adapter's formula names for the rows of that block: what point `t` writes
  back is block `t` of the adapter's output. Every row `T` lies in the block of point `T / 512`, so the 64 blocks
  cover the array, and after the run the output array is the adapter's output of the three arguments.
-/
import proofs.«101216_j66305705115884_2_alg».proof.Proof.Gen.KernelIdeal.Value
import proofs.«101216_j66305705115884_2_alg».proof.Proof.BlockAdapter
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.ArrayAdapter

open Cert.KernelIdeal Cert.KernelIdeal.Gen Cert.Adapter

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the 64 points: rows and output move with the point, the weights with the point's
    expert, and no window moves along any other axis. -/
theorem index_facts : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- One entry of the body's stored block, for blocks that hold the rows of `X` around row `i 0` and the weights of
    that row's expert: it is the adapter's output of `X`, `A`, `B` at `i`. -/
theorem entry_eq (x0 : Vec Ideal S512x2048 .f32) (x1 : Vec Ideal S1x2048x128 .f32) (x2 : Vec Ideal S1x128x2048 .f32)
    (X : Acts) (A : Downs) (B : Ups) (j : S512x2048.Idx) (i : S32768x2048.Idx)
    (hx : ∀ h : Fin 2048, x0 (ix2 (j 0) h) = X (ix2 (i 0) h))
    (ha : ∀ (h : Fin 2048) (r : Fin 128), x1 (ix3 (0 : Fin 1) h r) = A (ix3 (expertOf (i 0)) h r))
    (hb : ∀ r : Fin 128, x2 (ix3 (0 : Fin 1) r (j 1)) = B (ix3 (expertOf (i 0)) r (i 1))) :
    k0_pay1 (F := Ideal) x0 x1 x2 j = out X A B i := by
  refine (congrArg (k0_pay1 (F := Ideal) x0 x1 x2) (eq_ix2 j)).trans
    ((BlockAdapter.stored_apply x0 x1 x2 (j 0) (j 1)).trans ?_)
  unfold out low
  refine congrArg₂ (· * ·) (Finset.sum_congr rfl fun r _ => ?_) rfl
  refine congrArg₂ (· * ·) (Finset.sum_congr rfl fun h _ => ?_) (hb r)
  exact congrArg₂ (· * ·) (hx h) (ha h r)

/-- The block that point `t` writes back is block `t` of the adapter's output of the argument arrays: the rows the
    body was handed are the rows of that block, and the weights are those of the rows' expert. -/
theorem flushed_eq (c : Dev nD) (t : Fin cfg0.N) :
    (dats m 0 c).flushed 3 t
      = ((cfg0.win 3).blk t).view.read (Elt Ideal) (out (V m c main_arg0) (V m c main_arg1) (V m c main_arg2)) := by
  rw [Value.flushed3]
  unfold out0_3
  rw [View.canon_unit_zero zeros2]
  simp only [View.ld_unit_zero (S := S512x2048) zeros2, View.ld_unit_zero (S := S1x2048x128) zeros3,
    View.ld_unit_zero (S := S1x128x2048) zeros3]
  obtain ⟨e30, e31, e00, e01, e10, e11, e12, e20, e21, e22⟩ := index_facts t
  have ht : t.val < 64 := by have h := t.isLt; have hN : cfg0.N = 64 := N_0; omega
  funext j
  have hj0 : (j 0).val < 512 := (j 0).isLt
  have hj1 : (j 1).val < 2048 := (j 1).isLt
  show k0_pay1 (F := Ideal) (iblk m c 0 t) (iblk m c 1 t) (iblk m c 2 t) j
    = out (V m c main_arg0) (V m c main_arg1) (V m c main_arg2) (((cfg0.win 3).blk t).view.emb j)
  refine entry_eq (iblk m c 0 t) (iblk m c 1 t) (iblk m c 2 t) (V m c main_arg0) (V m c main_arg1) (V m c main_arg2) j
    (((cfg0.win 3).blk t).view.emb j) (fun h => ?_) (fun h r => ?_) (fun r => ?_)
  · show V m c main_arg0 (((cfg0.win 0).blk t).view.emb (ix2 (j 0) h)) = V m c main_arg0 (ix2 ((((cfg0.win 3).blk t).view.emb j) 0) h)
    refine congrArg (V m c main_arg0) (funext fun a => Fin.ext ?_)
    match a with
    | ⟨0, _⟩ =>
      show win0_0.index t (0 : Fin 2) * 512 + 1 * (j 0).val = win0_3.index t (0 : Fin 2) * 512 + 1 * (j 0).val
      omega
    | ⟨1, _⟩ =>
      show win0_0.index t (1 : Fin 2) * 2048 + 1 * h.val = h.val
      omega
  · show V m c main_arg1 (((cfg0.win 1).blk t).view.emb (ix3 (0 : Fin 1) h r))
      = V m c main_arg1 (ix3 (expertOf ((((cfg0.win 3).blk t).view.emb j) 0)) h r)
    refine congrArg (V m c main_arg1) (funext fun a => Fin.ext ?_)
    match a with
    | ⟨0, _⟩ =>
      show win0_1.index t (0 : Fin 3) * 1 + 1 * 0 = (win0_3.index t (0 : Fin 2) * 512 + 1 * (j 0).val) / 2048
      omega
    | ⟨1, _⟩ =>
      show win0_1.index t (1 : Fin 3) * 2048 + 1 * h.val = h.val
      omega
    | ⟨2, _⟩ =>
      show win0_1.index t (2 : Fin 3) * 128 + 1 * r.val = r.val
      omega
  · show V m c main_arg2 (((cfg0.win 2).blk t).view.emb (ix3 (0 : Fin 1) r (j 1)))
      = V m c main_arg2 (ix3 (expertOf ((((cfg0.win 3).blk t).view.emb j) 0)) r ((((cfg0.win 3).blk t).view.emb j) 1))
    refine congrArg (V m c main_arg2) (funext fun a => Fin.ext ?_)
    match a with
    | ⟨0, _⟩ =>
      show win0_2.index t (0 : Fin 3) * 1 + 1 * 0 = (win0_3.index t (0 : Fin 2) * 512 + 1 * (j 0).val) / 2048
      omega
    | ⟨1, _⟩ =>
      show win0_2.index t (1 : Fin 3) * 128 + 1 * r.val = r.val
      omega
    | ⟨2, _⟩ =>
      show win0_2.index t (2 : Fin 3) * 2048 + 1 * (j 1).val = win0_3.index t (1 : Fin 2) * 2048 + 1 * (j 1).val
      omega

/-- An index of the output array is in point `t`'s block iff each coordinate is in the block's range on its axis. -/
theorem mem_block (t : Fin cfg0.N) (i : S32768x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v0).slice (win0_3.rect t)).set ↔ _
  rw [View.set_slice_whole, Rect.mem_set_unit]
  exact Iff.rfl

/-- Every index of the output array is in the block of the point its row falls in. -/
theorem cover (i : S32768x2048.Idx) :
    ∃ t : Fin cfg0.N, (cfg0.win 3).flush t = true ∧ i ∈ ((cfg0.win 3).blk t).view.set := by
  have hi0 : (i 0).val < 32768 := (i 0).isLt
  have hi1 : (i 1).val < 2048 := (i 1).isLt
  let t : Fin cfg0.N := ⟨(i 0).val / 512, by have hN : cfg0.N = 64 := N_0; omega⟩
  have htv : t.val = (i 0).val / 512 := rfl
  obtain ⟨e30, e31, -⟩ := index_facts t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- After the run the output array is the adapter's output of the three arguments as launched: each of the 64
    blocks is the matching block of it, and the blocks cover the array. -/
theorem final (c : Dev nD) :
    (dats m 0 c).arrAt 3 cfg0.N
      = out (m ((c : Thread nD τ).loc main_arg0)) (m ((c : Thread nD τ).loc main_arg1)) (m ((c : Thread nD τ).loc main_arg2)) :=
  (dats m 0 c).arrAt_eq_of_cover 3 (out (V m c main_arg0) (V m c main_arg1) (V m c main_arg2))
    (fun t _ => flushed_eq m c t) cover

/-- The kernel's run, read: the result array at the adapter's output, the arguments unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.ArrayAdapter

end
-- ==== Proof.lean ====
/-
  The grouped low-rank adapter: the kernel against its reference, over the extended reals.

  Both programs compute, for token row `T` of expert `e = T / 2048` and output feature `o`,
      out[T, o] = (∑ r, (∑ h, x[T, h] · a[e, h, r]) · b[e, r, o]) · ¼
  (Proof/Adapter.lean). The reference does it with two batched contractions between two views of the packed rows
  (Proof/RefAdapter.lean: read at an index, every factor is the entry the formula names). The kernel does it 512 rows
  at a time, each grid point multiplying its block of rows by its expert's two matrices into zero accumulators
  (Proof/BlockAdapter.lean: the stored block entry by entry; Proof/ArrayAdapter.lean: the 64 blocks are the blocks of
  the formula's array and cover it). The two sides nest their sums the same way and use the same word for ¼, so they
  are one function of the arguments with no algebra on the extended reals in between; in particular the finiteness
  of the inputs is never used. The kernel's changes of float format are the identity at this reading, and its
  idealization rewrote nothing, so the kernel and its idealization are one text and `preserves` has no conjunct.
  Each program terminates without a fault and leaves its arguments as launched: for the two kernels by their
  generated frames, for the reference by its generated run.
-/
import proofs.«101216_j66305705115884_2_alg».proof.Defs
import proofs.«101216_j66305705115884_2_alg».proof.Proof.Gen.Kernel
import proofs.«101216_j66305705115884_2_alg».proof.Proof.Gen.Kernel.Frame
import proofs.«101216_j66305705115884_2_alg».proof.Proof.Gen.KernelIdeal
import proofs.«101216_j66305705115884_2_alg».proof.Proof.Gen.KernelIdeal.Frame
import proofs.«101216_j66305705115884_2_alg».proof.Proof.Gen.KernelIdeal.Value
import proofs.«101216_j66305705115884_2_alg».proof.Proof.Gen.ReferenceIdeal
import proofs.«101216_j66305705115884_2_alg».proof.Proof.Gen.ReferenceIdeal.Run
import proofs.«101216_j66305705115884_2_alg».proof.Proof.Gen.ReferenceIdeal.Read
import proofs.«101216_j66305705115884_2_alg».proof.Proof.Gen.Pre_finite_inputs
import proofs.«101216_j66305705115884_2_alg».proof.Proof.Adapter
import proofs.«101216_j66305705115884_2_alg».proof.Proof.RefAdapter
import proofs.«101216_j66305705115884_2_alg».proof.Proof.ArrayAdapter
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, both programs end with the adapter's output of them. -/
theorem algebraic : Cert.algebraic_KernelIdeal_ReferenceIdeal := by
  intro m ρ m' ρ' _ hagree
  refine ⟨_, Cert.ArrayAdapter.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Cert.RefAdapter.reference_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
